-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x32 : Shape := ⟨2, ![4000000, 32]⟩
abbrev S500000x4 : Shape := ⟨2, ![500000, 4]⟩
abbrev S_ : Shape := ⟨0, ![]⟩

class Facts : Prop where
  bcast_S_S4000000x32 : S_.BroadcastsInDim S4000000x32 (![] : Fin 0 → Fin S4000000x32.rank)
  reducesTo_S4000000x32_S_d0_1 : S4000000x32.ReducesTo [0, 1] S_
  h_S_ : 0 < S_.numel

variable [Facts]

def fn {F : FTy → Type} [FloatOps F] (main_arg0 : FVec F S4000000x32 .f32) (main_arg1 : IVec S500000x4 32) : IVec S_ 1 :=
  let main_v0 : FVec F S4000000x32 .f32 := Host.absf main_arg0
  let main_cst : FVec F S_ .f32 := constant S_ .f32 0x7F800000#32
  let main_v1 : FVec F S4000000x32 .f32 := broadcastInDim S4000000x32 ![] bcast_S_S4000000x32 main_cst
  let main_v2 : IVec S4000000x32 1 := cmpf .olt main_v0 main_v1
  let main_c : IVec S_ 1 := constantI S_ 1 1#1
  let main_v3 : IVec S_ 1 := (fun x v => Host.reduce IntOp.andi x v reducesTo_S4000000x32_S_d0_1 h_S_) main_v2 main_c
  main_v3
-- ==== Kernel.lean ====
abbrev S4000000x32 : Shape := ⟨2, ![4000000, 32]⟩
abbrev S500000x4 : Shape := ⟨2, ![500000, 4]⟩
abbrev S500000x256 : Shape := ⟨2, ![500000, 256]⟩
abbrev S8000x32 : Shape := ⟨2, ![8000, 32]⟩
abbrev S1000x256 : Shape := ⟨2, ![1000, 256]⟩
abbrev S1000x8x32 : Shape := ⟨3, ![1000, 8, 32]⟩
abbrev S1000x32x8 : Shape := ⟨3, ![1000, 32, 8]⟩

abbrev nBuf : Space → Nat
  | .hbm => 3
  | .vmem => 4
  | .smem => 0
  | _ => 0

abbrev bufTy : (tb : Table) → Fin (tcTables nBuf tb) → BufTy
  | .hbm, ⟨0, _⟩ => ⟨S4000000x32, .f32⟩
  | .hbm, ⟨1, _⟩ => ⟨S500000x4, .i32⟩
  | .hbm, ⟨2, _⟩ => ⟨S500000x256, .f32⟩
  | .local _ .vmem, ⟨0, _⟩ => ⟨S8000x32, .f32⟩
  | .local _ .vmem, ⟨1, _⟩ => ⟨S8000x32, .f32⟩
  | .local _ .vmem, ⟨2, _⟩ => ⟨S1000x256, .f32⟩
  | .local _ .vmem, ⟨3, _⟩ => ⟨S1000x256, .f32⟩
  | _, _ => ⟨S4000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8000x32_S8000x32_0_0 : ∀ a, (![0, 0] : Fin 2 → Nat) a + S8000x32.size a ≤ S8000x32.size a
  h_S8000x32 : 0 < S8000x32.numel
  shapeCasts_S8000x32_S1000x8x32 : S8000x32.ShapeCasts S1000x8x32
  transposes_S1000x8x32_p0_2_1_S1000x32x8 : S1000x8x32.Transposes [0, 2, 1] S1000x32x8
  shapeCasts_S1000x32x8_S1000x256 : S1000x32x8.ShapeCasts S1000x256
  inb_S1000x256_S1000x256_0_0 : ∀ a, (![0, 0] : Fin 2 → Nat) a + S1000x256.size a ≤ S1000x256.size a
  h_S1000x256 : 0 < S1000x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S4000000x32.size a
  hwx0_0 : ∀ i : grid0.Coords, EltTy.bits .f32 = 32 ∨ (Rect.block (s := S4000000x32) S8000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S500000x256.size a
  hwx0_1 : ∀ i : grid0.Coords, EltTy.bits .f32 = 32 ∨ (Rect.block (s := S500000x256) S1000x256.size (cc0_transform_1 i) (hinb0_1 i)).WholeWords (EltTy.packing .f32)

variable [Facts₀]

abbrev win0_0 : Pipeline.Window sig grid0 :=
  Pipeline.Window.ofSpec (Memref.whole main_arg0) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x32 : Shape := ⟨2, ![4000000, 32]⟩
abbrev S500000x4 : Shape := ⟨2, ![500000, 4]⟩
abbrev S500000x8x32 : Shape := ⟨3, ![500000, 8, 32]⟩
abbrev S500000x32x8 : Shape := ⟨3, ![500000, 32, 8]⟩
abbrev S500000x256 : Shape := ⟨2, ![500000, 256]⟩

abbrev nBuf : Space → Nat
  | .hbm => 5
  | .vmem => 0
  | .smem => 0
  | _ => 0

abbrev bufTy : (tb : Table) → Fin (tcTables nBuf tb) → BufTy
  | .hbm, ⟨0, _⟩ => ⟨S4000000x32, .f32⟩
  | .hbm, ⟨1, _⟩ => ⟨S500000x4, .i32⟩
  | .hbm, ⟨2, _⟩ => ⟨S500000x8x32, .f32⟩
  | .hbm, ⟨3, _⟩ => ⟨S500000x32x8, .f32⟩
  | .hbm, ⟨4, _⟩ => ⟨S500000x256, .f32⟩
  | _, _ => ⟨S4000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4000000x32_S500000x8x32 : S4000000x32.ShapeCasts S500000x8x32
  transposes_S500000x8x32_S500000x32x8_0_2_1 : S500000x8x32.Transposes [0, 2, 1] S500000x32x8
  shapeCasts_S500000x32x8_S500000x256 : S500000x32x8.ShapeCasts S500000x256

variable [Facts₀]

class Facts : Prop extends Facts₀ where

variable [Facts]
-- ==== Proof.Unshuffle.lean ====
/-
  The voxel unshuffle as a gather.  The input is a table of 4,000,000 rows of 32 channels: row `8 n + v` holds the 32
  channel values of sub-voxel `v` (of 8) of voxel `n`.  The output has one row of 256 entries per voxel, channel-major:
  entry `8 c + v` of row `n` is channel `c` of sub-voxel `v`,

      out[n, 8 c + v] = in[8 n + v, c].

  So every output entry is ONE input entry, and the whole operation is the input read through the index map `srcOf`
  below.  No arithmetic on the values happens at all, which is why nothing here depends on what the entries are
  (extended reals or words).  The same formula on a slab of 1000 voxels (8000 input rows) is `blkSrcOf`; the two agree
  once the slab's offset is added, because 8000 = 8 · 1000 and 256 is a multiple of 8 (`src_of_block`).
-/
import Idealize.ShloMosaic.Lib.ValueIdx

namespace Cert.Unshuffle

open Idealize.ShloMosaic Idealize.ShloMosaic.ValueIdx

/-- Where output entry `(n, 8 c + v)` comes from: input row `8 n + v`, column `c`. -/
def srcOf (i : (⟨2, ![500000, 256]⟩ : Shape).Idx) : (⟨2, ![4000000, 32]⟩ : Shape).Idx :=
  ix2 (⟨(i 0).val * 8 + (i 1).val % 8, by have h0 := idx2_lt0 i; have h1 := idx2_lt1 i; omega⟩ : Fin 4000000)
      (⟨(i 1).val / 8, by have h1 := idx2_lt1 i; omega⟩ : Fin 32)

/-- The same map inside one slab of 1000 voxels: slab entry `(n, 8 c + v)` comes from slab row `8 n + v`, column `c`. -/
def blkSrcOf (j : (⟨2, ![1000, 256]⟩ : Shape).Idx) : (⟨2, ![8000, 32]⟩ : Shape).Idx :=
  ix2 (⟨(j 0).val * 8 + (j 1).val % 8, by have h0 := idx2_lt0 j; have h1 := idx2_lt1 j; omega⟩ : Fin 8000)
      (⟨(j 1).val / 8, by have h1 := idx2_lt1 j; omega⟩ : Fin 32)

theorem srcOf_row (i : (⟨2, ![500000, 256]⟩ : Shape).Idx) : (srcOf i 0).val = (i 0).val * 8 + (i 1).val % 8 := rfl
theorem srcOf_col (i : (⟨2, ![500000, 256]⟩ : Shape).Idx) : (srcOf i 1).val = (i 1).val / 8 := rfl
theorem blkSrcOf_row (j : (⟨2, ![1000, 256]⟩ : Shape).Idx) : (blkSrcOf j 0).val = (j 0).val * 8 + (j 1).val % 8 := rfl
theorem blkSrcOf_col (j : (⟨2, ![1000, 256]⟩ : Shape).Idx) : (blkSrcOf j 1).val = (j 1).val / 8 := rfl

/-- The unshuffled table: the input read through `srcOf`. -/
def unshuffle {α : Type} (x : (⟨2, ![4000000, 32]⟩ : Shape).Idx → α) : (⟨2, ![500000, 256]⟩ : Shape).Idx → α :=
  fun i => x (srcOf i)

/-- Slab `t` of the output (rows `1000 t …`, all 256 columns) gathers from slab `t` of the input (rows `8000 t …`, all 32
    columns): the source of output entry `(1000 t + n, q)` is input row `8000 t + (8 n + q mod 8)`, column `q / 8`. -/
theorem src_of_block (t : Nat) (j : (⟨2, ![1000, 256]⟩ : Shape).Idx) (i : (⟨2, ![500000, 256]⟩ : Shape).Idx)
    (h0 : (i 0).val = t * 1000 + (j 0).val) (h1 : (i 1).val = (j 1).val) :
    (srcOf i 0).val = t * 8000 + (blkSrcOf j 0).val ∧ (srcOf i 1).val = (blkSrcOf j 1).val := by
  rw [srcOf_row, srcOf_col, blkSrcOf_row, blkSrcOf_col, h0, h1]
  constructor <;> omega

end Cert.Unshuffle
-- ==== Proof.RefUnshuffled.lean ====
/-
  The reference computes the unshuffle in three layout steps: split the 4,000,000 rows into (500000 voxels, 8 sub-voxels),
  swap the sub-voxel axis with the channel axis, and merge (32 channels, 8 sub-voxels) into 256 columns.  Reading the
  three steps backwards from an output index `(n, q)`: the merge sends it to `(n, q / 8, q mod 8)`, the swap to
  `(n, q mod 8, q / 8)`, and the split to row `8 n + q mod 8`, column `q / 8` — which is `srcOf (n, q)`.
-/
import proofs.«107979_j82660940579209_2_alg».proof.Proof.Gen.ReferenceIdeal.Read
import proofs.«107979_j82660940579209_2_alg».proof.Proof.Unshuffle

noncomputable section

namespace Cert.ReferenceIdeal.Unshuffled

open Cert.ReferenceIdeal Cert.ReferenceIdeal.Read Idealize.ShloMosaic Idealize.ShloMosaic.ValueIdx Cert.Unshuffle

variable {F : FTy → Type} [FloatOps F]

/-- The three index maps composed are `srcOf`. -/
theorem idx_comp (i : S500000x256.Idx) : idx_main_v0 (idx_main_v1 (idx_main_v2 i)) = srcOf i := by
  have h0 : (i 0).val < 500000 := idx2_lt0 i
  have h1 : (i 1).val < 256 := idx2_lt1 i
  -- the merged position 256 n + q, split back: its voxel, its sub-voxel, its channel
  have e1 : ((i 0).val * 256 + (i 1).val) / 256 = (i 0).val := by omega
  have e2 : ((i 0).val * 256 + (i 1).val) % 8 = (i 1).val % 8 := by omega
  have e3 : ((i 0).val * 256 + (i 1).val) / 8 = (i 0).val * 32 + (i 1).val / 8 := by omega
  have e4 : ((i 0).val * 32 + (i 1).val / 8) % 32 = (i 1).val / 8 := by omega
  funext a
  apply Fin.ext
  match a with
  | ⟨0, _⟩ =>
    show ((((i 0).val * 256 + (i 1).val) / 256 * 8 + ((i 0).val * 256 + (i 1).val) % 8) * 32
        + ((i 0).val * 256 + (i 1).val) / 8 % 32) / 32 = (i 0).val * 8 + (i 1).val % 8
    rw [e1, e2, e3, e4]
    omega
  | ⟨1, _⟩ =>
    show ((((i 0).val * 256 + (i 1).val) / 256 * 8 + ((i 0).val * 256 + (i 1).val) % 8) * 32
        + ((i 0).val * 256 + (i 1).val) / 8 % 32) % 32 = (i 1).val / 8
    rw [e1, e2, e3, e4]
    omega

/-- The reference's result is the input unshuffled. -/
theorem val_eq (x0 : (⟨S4000000x32, .f32⟩ : BufTy).Contents (Elt F)) :
    val_main_v2 (F := F) x0 = unshuffle x0 := by
  funext i
  rw [val_main_v2_apply, val_main_v1_apply, val_main_v0_apply, idx_comp]
  rfl

end Cert.ReferenceIdeal.Unshuffled

end
-- ==== Proof.BodyStores.lean ====
/-
  What one run of the kernel body stores.  The body loads a slab of 8000 rows by 32 channels, splits its rows into
  (1000 voxels, 8 sub-voxels), swaps the sub-voxel axis with the channel axis, merges (32 channels, 8 sub-voxels) into 256
  columns, and stores the 1000 × 256 result.  Read backwards from a stored index `(n, q)`: the merge sends it to
  `(n, q / 8, q mod 8)`, the swap to `(n, q mod 8, q / 8)`, the split to slab row `8 n + q mod 8`, column `q / 8`: the stored
  entry is the loaded slab at `blkSrcOf (n, q)`.
-/
import proofs.«107979_j82660940579209_2_alg».proof.Proof.Gen.KernelIdeal.Skeleton
import proofs.«107979_j82660940579209_2_alg».proof.Proof.Unshuffle
import Idealize.ShloMosaic.Lib.Pipeline.Value

noncomputable section

namespace Cert.KernelIdeal.Body

open Cert.KernelIdeal Cert.KernelIdeal.Gen Idealize.ShloMosaic Idealize.ShloMosaic.ValueIdx Cert.Unshuffle

variable {F : FTy → Type} [FloatOps F]

/-- The stored value at `(n, q)` is the loaded slab at row `8 n + q mod 8`, column `q / 8`. -/
theorem stored_apply (x0 : Vec F S8000x32 .f32) (j : S1000x256.Idx) : k0_pay1 x0 j = x0 (blkSrcOf j) := by
  have h0 : (j 0).val < 1000 := idx2_lt0 j
  have h1 : (j 1).val < 256 := idx2_lt1 j
  -- the three intermediate indices, by coordinates
  let n : Fin 1000 := ⟨(j 0).val, h0⟩
  let c : Fin 32 := ⟨(j 1).val / 8, by omega⟩
  let v : Fin 8 := ⟨(j 1).val % 8, Nat.mod_lt _ (by decide)⟩
  unfold k0_pay1
  refine (shapeCast_apply _ shapeCasts_S1000x32x8_S1000x256 j (ix3 n c v) ?_).trans ?_
  · rw [Shape.rowMajor_val_three, Shape.rowMajor_val_two]
    show ((j 0).val * 32 + (j 1).val / 8) * 8 + (j 1).val % 8 = (j 0).val * 256 + (j 1).val
    omega
  refine (transpose_apply [0, 2, 1] _ transposes_S1000x8x32_p0_2_1_S1000x32x8 (ix3 n c v) (ix3 n v c) ?_).trans ?_
  · intro b
    match b with
    | ⟨0, _⟩ => rfl
    | ⟨1, _⟩ => rfl
    | ⟨2, _⟩ => rfl
  refine shapeCast_apply x0 shapeCasts_S8000x32_S1000x8x32 (ix3 n v c) (blkSrcOf j) ?_
  rw [Shape.rowMajor_val_two, Shape.rowMajor_val_three]
  show ((j 0).val * 8 + (j 1).val % 8) * 32 + (j 1).val / 8 = ((j 0).val * 8 + (j 1).val % 8) * 32 + (j 1).val / 8
  rfl

end Cert.KernelIdeal.Body

end
-- ==== Proof.KernelUnshuffled.lean ====
/-
  From slabs to the whole table.  The launch has 500 grid points; point `t` fetches input rows `8000 t … 8000 t + 7999`
  (all 32 columns) and writes back output rows `1000 t … 1000 t + 999` (all 256 columns).  What it writes back is the body's
  store of the fetched slab, i.e. the slab gathered through `blkSrcOf`; adding the slabs' offsets, that is slab `t` of the
  input gathered through `srcOf` (8000 = 8 · 1000).  Output row `r` lies in the slab of point `r / 1000`, so the 500 slabs
  cover the output, and the output table after the run is the whole input unshuffled.
-/
import proofs.«107979_j82660940579209_2_alg».proof.Proof.Gen.KernelIdeal.Value
import proofs.«107979_j82660940579209_2_alg».proof.Proof.BodyStores
import proofs.«107979_j82660940579209_2_alg».proof.Proof.Unshuffle
import Idealize.ShloMosaic.Lib.Pipeline.Value

noncomputable section

namespace Cert.KernelIdeal.Unshuffled

open Cert.KernelIdeal Cert.KernelIdeal.Gen Idealize.ShloMosaic Idealize.ShloMosaic.TcCoe Idealize.SL.Sem
open Idealize.ShloMosaic.Pipeline (Dat)
open Idealize.ShloMosaic.ValueIdx Cert.Unshuffle

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- Both windows' slab numbers at point `t` are `(t, 0)`: decided over the 500 points. -/
theorem slab_numbers : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is slab `t` of the input table unshuffled. -/
theorem flushed_eq (c : Dev nD) (t : Fin cfg0.N) :
    (dats m 0 c).flushed 1 t = ((cfg0.win 1).blk t).view.read (Elt F) (unshuffle (V m c main_arg0)) := by
  rw [Value.flushed1]
  unfold out0_1
  rw [View.canon_unit_zero zero_offsets]
  simp only [View.ld_unit_zero (S := S8000x32) zero_offsets]
  obtain ⟨e00, e01, e10, e11⟩ := slab_numbers t
  funext j
  show k0_pay1 (F := F) (iblk m c 0 t) j = unshuffle (V m c main_arg0) (((cfg0.win 1).blk t).view.emb j)
  refine (Body.stored_apply _ j).trans ?_
  show V m c main_arg0 (((cfg0.win 0).blk t).view.emb (blkSrcOf j)) = V m c main_arg0 (srcOf (((cfg0.win 1).blk t).view.emb j))
  have hsrc := src_of_block t.val j (((cfg0.win 1).blk t).view.emb j)
    (show win0_1.index t (0 : Fin 2) * 1000 + 1 * (j 0).val = t.val * 1000 + (j 0).val by rw [e10]; omega)
    (show win0_1.index t (1 : Fin 2) * 256 + 1 * (j 1).val = (j 1).val by rw [e11]; omega)
  refine congrArg _ (funext fun a => Fin.ext ?_)
  match a with
  | ⟨0, _⟩ =>
    show win0_0.index t (0 : Fin 2) * 8000 + 1 * (blkSrcOf j 0).val = (srcOf (((cfg0.win 1).blk t).view.emb j) 0).val
    rw [hsrc.1, e00]; omega
  | ⟨1, _⟩ =>
    show win0_0.index t (1 : Fin 2) * 32 + 1 * (blkSrcOf j 1).val = (srcOf (((cfg0.win 1).blk t).view.emb j) 1).val
    rw [hsrc.2, e01]; omega

/-- An output index lies in point `t`'s slab iff each coordinate is in the slab's range on its axis. -/
theorem mem_slab (t : Fin cfg0.N) (i : S500000x256.Idx) :
    i ∈ ((cfg0.win 1).blk t).view.set ↔ ∀ a : Fin 2, win0_1.index t a * S1000x256.size a ≤ (i a).val ∧ (i a).val < win0_1.index t a * S1000x256.size a + S1000x256.size a := by
  show i ∈ ((View.whole main_v0).slice (win0_1.rect t)).set ↔ _
  rw [View.set_slice_whole, Rect.mem_set_unit]
  exact Iff.rfl

/-- Every output index lies in the slab of point `row / 1000`. -/
theorem covered (i : S500000x256.Idx) :
    ∃ t : Fin cfg0.N, (cfg0.win 1).flush t = true ∧ i ∈ ((cfg0.win 1).blk t).view.set := by
  have h0 : (i 0).val < 500000 := idx2_lt0 i
  have h1 : (i 1).val < 256 := idx2_lt1 i
  have hN : cfg0.N = 500 := N_0
  let t : Fin cfg0.N := ⟨(i 0).val / 1000, by rw [hN]; omega⟩
  obtain ⟨-, -, e10, e11⟩ := slab_numbers t
  have ht : t.val = (i 0).val / 1000 := rfl
  refine ⟨t, flush0_1 t, ?_⟩
  rw [mem_slab]
  intro a
  match a with
  | ⟨0, _⟩ =>
    show win0_1.index t (0 : Fin 2) * 1000 ≤ (i 0).val ∧ (i 0).val < win0_1.index t (0 : Fin 2) * 1000 + 1000
    rw [e10, ht]; omega
  | ⟨1, _⟩ =>
    show win0_1.index t (1 : Fin 2) * 256 ≤ (i 1).val ∧ (i 1).val < win0_1.index t (1 : Fin 2) * 256 + 256
    rw [e11]; omega

/-- The output table after the run is the input table unshuffled. -/
theorem final (c : Dev nD) : (dats m 0 c).arrAt 1 cfg0.N = unshuffle (m ((c : Thread nD τ).loc main_arg0)) :=
  (dats m 0 c).arrAt_eq_of_cover 1 (unshuffle (V m c main_arg0)) (fun t _ => flushed_eq m c t) covered

/-- The kernel's run, read: the result table is the input unshuffled, the arguments unchanged. -/
theorem run : θ_run defs (onTc (τ := τ) (main (F := F))) ⟨m, fun _ => 0, ρ⟩ fun r => ∀ c : Dev nD,
      r.2.mem ((c : Thread nD τ).loc main_v0) = unshuffle (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Unshuffled

end
-- ==== Proof.lean ====
/-
  The voxel unshuffle kernel against its reference.

  Both programs rearrange a table of 4,000,000 rows by 32 channels (8 consecutive rows are the 8 sub-voxels of one voxel)
  into 500,000 rows of 256 entries, channel-major inside a row:  out[n, 8 c + v] = in[8 n + v, c].  Neither does any
  arithmetic on the entries, so the two results are the same gather of the input (`Unshuffle.unshuffle`), entry by entry,
  whatever the entries are; the finiteness of the input is never used.

  * The reference is three layout steps (split rows, swap two axes, merge two axes) whose index maps compose to the
    gather's (`ReferenceIdeal.Unshuffled.val_eq`).
  * The kernel walks 500 slabs of 1000 voxels; each slab is the same three steps on 8000 rows, and the slabs tile the
    output (`KernelIdeal.Unshuffled.run`).
  * The second result of both programs is the integer argument handed through unchanged.
  * The idealized kernel is the kernel's own text with no operation rewritten, so the statement that it is the kernel's
    idealization has no conjunct to prove.
-/
import proofs.«107979_j82660940579209_2_alg».proof.Defs
import proofs.«107979_j82660940579209_2_alg».proof.Proof.Gen.Kernel
import proofs.«107979_j82660940579209_2_alg».proof.Proof.Gen.Kernel.Skeleton
import proofs.«107979_j82660940579209_2_alg».proof.Proof.Gen.Kernel.Launch
import proofs.«107979_j82660940579209_2_alg».proof.Proof.Gen.Kernel.Points
import proofs.«107979_j82660940579209_2_alg».proof.Proof.Gen.Kernel.Frame
import proofs.«107979_j82660940579209_2_alg».proof.Proof.Gen.KernelIdeal
import proofs.«107979_j82660940579209_2_alg».proof.Proof.Gen.KernelIdeal.Skeleton
import proofs.«107979_j82660940579209_2_alg».proof.Proof.Gen.KernelIdeal.Launch
import proofs.«107979_j82660940579209_2_alg».proof.Proof.Gen.KernelIdeal.Points
import proofs.«107979_j82660940579209_2_alg».proof.Proof.Gen.KernelIdeal.Frame
import proofs.«107979_j82660940579209_2_alg».proof.Proof.Gen.ReferenceIdeal
import proofs.«107979_j82660940579209_2_alg».proof.Proof.Gen.Pre_finite_inputs
import proofs.«107979_j82660940579209_2_alg».proof.Proof.Gen.KernelIdeal.Value
import proofs.«107979_j82660940579209_2_alg».proof.Proof.Gen.ReferenceIdeal.Run
import proofs.«107979_j82660940579209_2_alg».proof.Proof.Gen.ReferenceIdeal.Read
import proofs.«107979_j82660940579209_2_alg».proof.Proof.Unshuffle
import proofs.«107979_j82660940579209_2_alg».proof.Proof.RefUnshuffled
import proofs.«107979_j82660940579209_2_alg».proof.Proof.KernelUnshuffled
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments alone: its run, with what it says of the results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- Nothing was rewritten, so nothing is asked. -/
theorem preserves : Cert.preserves_Kernel_KernelIdeal := trivial

/-- From memories that agree on the arguments both programs end with the first result at the input table unshuffled
    and the second at the integer argument. -/
theorem algebraic : Cert.algebraic_KernelIdeal_ReferenceIdeal := by
  intro m ρ m' ρ' _ hagree
  refine ⟨fun c => Cert.Unshuffle.unshuffle (m ((c.tc : Thread Cert.KernelIdeal.nD Cert.KernelIdeal.τ).loc Cert.KernelIdeal.main_arg0)),
    fun c => m ((c.tc : Thread Cert.KernelIdeal.nD Cert.KernelIdeal.τ).loc Cert.KernelIdeal.main_arg1), ?_, ?_⟩
  · exact (θ_run Cert.KernelIdeal.defs _ _).mono (fun _ h c => ⟨(h c).1, (h c).2.2, (h c).2.1, (h c).2.2⟩)
      (Cert.KernelIdeal.Unshuffled.run (F := Ideal) m ρ)
  · refine (θ_run Cert.ReferenceIdeal.defs _ _).mono (fun _ h c => ⟨(h c).1.trans ?_, (h c).2.1.trans (hagree c).2, (h c).2.2⟩)
      (Cert.ReferenceIdeal.Value.run (F := Ideal) m' ρ')
    rw [Cert.ReferenceIdeal.Read.val_main_v2_eq, Cert.ReferenceIdeal.Unshuffled.val_eq, (hagree c).1]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
